-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S4096x2048 .f32) (main_arg8 : FVec F S2048 .f32) (main_arg9 : FVec F S4096x2048 .f32) (main_arg10 : FVec F S2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S4096x2048 .f32) (main_arg6 : FVec F S2048 .f32) (main_arg7 : FVec F S4096x2048 .f32) (main_arg8 : FVec F S2048 .f32) (main_arg9 : FVec F S4096x2048 .f32) (main_arg10 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048 .f32) (main_arg5 : FVec F S4096x2048 .f32) (main_arg6 : FVec F S2048 .f32) (main_arg7 : FVec F S4096x2048 .f32) (main_arg8 : FVec F S2048 .f32) (main_arg9 : FVec F S4096x2048 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048 : Shape := ⟨1, ![2048]⟩
abbrev S4096x4096 : Shape := ⟨2, ![4096, 4096]⟩
abbrev S1x2048 : Shape := ⟨2, ![1, 2048]⟩
abbrev S4x2048 : Shape := ⟨2, ![4, 2048]⟩
abbrev S128x4096 : Shape := ⟨2, ![128, 4096]⟩
abbrev S4096x256 : Shape := ⟨2, ![4096, 256]⟩
abbrev S4x256 : Shape := ⟨2, ![4, 256]⟩
abbrev S128x256 : Shape := ⟨2, ![128, 256]⟩
abbrev S1x256 : Shape := ⟨2, ![1, 256]⟩

abbrev nBuf : Space → Nat
  | .hbm => 20
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S4x2048, .f32⟩
  | .hbm, ⟨18, _⟩ => ⟨S4096x2048, .f32⟩
  | .hbm, ⟨19, _⟩ => ⟨S4096x2048, .f32⟩
  | .local _ .vmem, ⟨0, _⟩ => ⟨S128x4096, .bf16⟩
  | .local _ .vmem, ⟨1, _⟩ => ⟨S128x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4x256, .f32⟩
  | .local _ .vmem, ⟨11, _⟩ => ⟨S4x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  concatenates_S4096x2048_S4096x2048_S4096x4096_d1 : Shape.Concatenates [S4096x2048, S4096x2048] S4096x4096 1
  bitsLt_bf16_f32 : FTy.bits .bf16 < FTy.bits .f32
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x256_S4096x256_0_0 : ∀ a, (![0, 0] : Fin 2 → Nat) a + S4096x256.size a ≤ S4096x256.size a
  h_S4096x256 : 0 < S4096x256.numel
  inb_S4x256_S1x256_0_0 : ∀ a, (![0, 0] : Fin 2 → Nat) a + S1x256.size a ≤ S4x256.size a
  h_S1x256 : 0 < S1x256.numel
  shapeCasts_S1x256_S1x256 : S1x256.ShapeCasts S1x256
  broadcasts_S1x256_S128x256 : S1x256.Broadcasts S128x256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  inb_S128x256_S128x256_0_0 : ∀ a, (![0, 0] : Fin 2 → Nat) a + S128x256.size a ≤ S128x256.size a
  h_S128x256 : 0 < S128x256.numel
  dot_S128x4096_S4096x256_S128x256_1_0_0_1_n_n_wf : DotDims.WF S128x4096 S4096x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .bf16 = 32 ∨ (Rect.block (s := S4096x4096) S128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x2048.size a
  hwx0_1 : ∀ i : grid0.Coords, EltTy.bits .f32 = 32 ∨ (Rect.block (s := S4096x2048) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x2048.size a
  hwx0_2 : ∀ i : grid0.Coords, EltTy.bits .f32 = 32 ∨ (Rect.block (s := S4096x2048) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x2048.size a
  hwx0_3 : ∀ i : grid0.Coords, EltTy.bits .f32 = 32 ∨ (Rect.block (s := S4096x2048) S4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x2048.size a
  hwx0_4 : ∀ i : grid0.Coords, EltTy.bits .f32 = 32 ∨ (Rect.block (s := S4096x2048) S4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S4096x2048.size a
  hwx0_6 : ∀ i : grid0.Coords, EltTy.bits .f32 = 32 ∨ (Rect.block (s := S4096x2048) S128x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S4096x2048.size a
  hwx0_7 : ∀ i : grid0.Coords, EltTy.bits .f32 = 32 ∨ (Rect.block (s := S4096x2048) S128x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S4096x2048.size a
  hwx0_8 : ∀ i : grid0.Coords, EltTy.bits .f32 = 32 ∨ (Rect.block (s := S4096x2048) S128x256.size (cc0_transform_8 i) (hinb0_8 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_v1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S128x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S128x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048 : Shape := ⟨1, ![2048]⟩
abbrev S4096x4096 : Shape := ⟨2, ![4096, 4096]⟩
abbrev S4096x8192 : Shape := ⟨2, ![4096, 8192]⟩
abbrev S8192 : Shape := ⟨1, ![8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S4096x4096, .f32⟩
  | .hbm, ⟨12, _⟩ => ⟨S4096x8192, .f32⟩
  | .hbm, ⟨13, _⟩ => ⟨S8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.KFrame.lean ====
import proofs.«159585_j63505386439276_2_alg».proof.Proof.Gen.Kernel.Launch
import proofs.«159585_j63505386439276_2_alg».proof.Proof.Gen.Kernel.Skeleton
import proofs.«159585_j63505386439276_2_alg».proof.Proof.Gen.Kernel.Points
import Idealize.ShloMosaic.Lib.Pipeline.FrameBody
import Idealize.ShloMosaic.Lib.Ring
import Idealize.ShloMosaic.Lib.Tactic

/-!
# The launch of the LSTM-cell kernel runs to its end and leaves its arguments alone

One kernel launch on an 8 × 32 grid (column tile n, row tile m). At point (n, m) the body is handed seven input
blocks — rows 128m … 128m+127 of the concatenated input [h | x] (4096 columns), columns 256n … 256n+255 of each of
the four gate weight matrices, the same columns of the 4 × 2048 bias stack, and tile (m, n) of the cell state — and
fills two output blocks, tile (m, n) of the next hidden state and of the next cell state. Every block is loaded whole,
every output block is stored whole, and nothing is kept from one point to the next. So after the body each output
staging buffer holds one value computed from the seven input blocks (`hiddenTile`, `cellTile`), each input buffer
still holds its block, and the pipeline's run is the library's frame run over that data. The seven host operations
before the launch (the concatenation, its rounding, four row broadcasts and their four-way stack) write only
intermediate buffers, so every argument array is found as launched and ends as launched.
-/

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch begins -/

/-- Core `c`'s buffers when the launch begins: the launch memory after the seven host operations. -/
abbrev V (c : Dev nD) (b : Ref sig .tc) : Buf (Elt F) ((c : Thread nD τ).loc b) :=
  StableHlo.after hostOps0 (fun b => m (c, b)) b

/-- None of the seven host operations allocates. -/
theorem hostOps0_fresh : (hostOps0 : List (HloOp τ sig (Elt F))).Forall fun op => op.fresh = ∅ := by
  simp only [List.Forall]; repeat' constructor

/-- The program is the seven host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 10: the launch finds it as it was. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## Blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the pipeline fetched it there or
    kept it from the point before (then the block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the pipeline fetched it there or
    kept it from the point before (then the block index has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the pipeline fetched it there or
    kept it from the point before (then the block index has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether the pipeline fetched it there or
    kept it from the point before (then the block index has not moved). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether the pipeline fetched it there or
    kept it from the point before (then the block index has not moved). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether the pipeline fetched it there or
    kept it from the point before (then the block index has not moved). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether the pipeline fetched it there or
    kept it from the point before (then the block index has not moved). -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a frame run of any proof data over the launch-time arrays: an argument that a window stages is an input, so
    it ends at its launch-time contents; an argument no window stages is not touched by the launch at all; and the
    launch-time contents of either are the launched ones. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 6).trans (((dats 0 c).arrAt_in 6 rfl _).trans ((hA c 6).trans (V_main_arg2 m c))),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).1 3).trans (((dats 0 c).arrAt_in 3 rfl _).trans ((hA c 3).trans (V_main_arg7 m c))),
      ((h c).2 main_arg8 (Pipeline.mem_restRefs_of main_arg8 (by decide) (by decide))).trans (V_main_arg8 m c),
      ((h c).1 4).trans (((dats 0 c).arrAt_in 4 rfl _).trans ((hA c 4).trans (V_main_arg9 m c))),
      ((h c).2 main_arg10 (Pipeline.mem_restRefs_of main_arg10 (by decide) (by decide))).trans (V_main_arg10 m c)⟩) h

/-! ## What the body loads and stores -/

abbrev rInp : Rect S128x4096 := Rect.unit (s := S128x4096) ![0, 0] S128x4096.size inb_S128x4096_S128x4096_0_0
abbrev rW : Rect S4096x256 := Rect.unit (s := S4096x256) ![0, 0] S4096x256.size inb_S4096x256_S4096x256_0_0
abbrev rB0 : Rect S4x256 := Rect.unit (s := S4x256) ![0, 0] S1x256.size inb_S4x256_S1x256_0_0
abbrev rB1 : Rect S4x256 := Rect.unit (s := S4x256) ![1, 0] S1x256.size inb_S4x256_S1x256_1_0
abbrev rB2 : Rect S4x256 := Rect.unit (s := S4x256) ![2, 0] S1x256.size inb_S4x256_S1x256_2_0
abbrev rB3 : Rect S4x256 := Rect.unit (s := S4x256) ![3, 0] S1x256.size inb_S4x256_S1x256_3_0
abbrev rTile : Rect S128x256 := Rect.unit (s := S128x256) ![0, 0] S128x256.size inb_S128x256_S128x256_0_0

/-- The next-cell tile from the seven input blocks: forget gate · cell tile + input gate · candidate, each gate the
    gate function of (input rows · weight columns + bias row). -/
def cellVal (x0 : Vec F S128x4096 .bf16) (x1 x2 x3 x4 : Vec F S4096x256 .f32) (x5 : Vec F S4x256 .f32) (x6 : Vec F S128x256 .f32) : Vec F S128x256 .f32 :=
  k0_pay1 (k0_pay4 (View.ld x0 rInp) (View.ld x1 rW) (View.ld x5 rB0)) (k0_pay5 (View.ld x0 rInp) (View.ld x2 rW) (View.ld x5 rB1))
    (k0_pay7 (View.ld x0 rInp) (View.ld x4 rW) (View.ld x5 rB3)) (View.ld x6 rTile)

/-- The next-hidden tile: output gate · tanh of the next-cell tile. -/
def hiddenVal (x0 : Vec F S128x4096 .bf16) (x1 x2 x3 x4 : Vec F S4096x256 .f32) (x5 : Vec F S4x256 .f32) (x6 : Vec F S128x256 .f32) : Vec F S128x256 .f32 :=
  k0_pay2 (k0_pay4 (View.ld x0 rInp) (View.ld x1 rW) (View.ld x5 rB0)) (k0_pay5 (View.ld x0 rInp) (View.ld x2 rW) (View.ld x5 rB1))
    (k0_pay6 (View.ld x0 rInp) (View.ld x3 rW) (View.ld x5 rB2)) (k0_pay7 (View.ld x0 rInp) (View.ld x4 rW) (View.ld x5 rB3)) (View.ld x6 rTile)

/-- What the body leaves in the next-hidden staging buffer: its one whole-tile store. -/
def hiddenTile (x0 : Vec F S128x4096 .bf16) (x1 x2 x3 x4 : Vec F S4096x256 .f32) (x5 : Vec F S4x256 .f32) (x6 : Vec F S128x256 .f32) : Vec F S128x256 .f32 :=
  View.canon [⟨rTile, hiddenVal x0 x1 x2 x3 x4 x5 x6⟩]

/-- What the body leaves in the next-cell staging buffer: its one whole-tile store. -/
def cellTile (x0 : Vec F S128x4096 .bf16) (x1 x2 x3 x4 : Vec F S4096x256 .f32) (x5 : Vec F S4x256 .f32) (x6 : Vec F S128x256 .f32) : Vec F S128x256 .f32 :=
  View.canon [⟨rTile, cellVal x0 x1 x2 x3 x4 x5 x6⟩]

/-- A whole-tile store covers the tile. -/
theorem cover_tile (p0 : Vec F S128x256 .f32) (y : S128x256.Idx) :
    ∃ pc ∈ ([⟨rTile, p0⟩] : List (View.Piece (Elt F) S128x256 .f32)), y ∈ pc.1.set :=
  View.cover_of_tiled [⟨rTile, p0⟩] S128x256.size (by rfl) y

/-! ## One run of the body -/

set_option maxHeartbeats 4000000 in
/-- The body on whole staging buffers, the seven inputs at contents `x0 … x6` and the two outputs at anything: it
    loads each input whole (the bias buffer one row at a time), loads and discards the outputs' old contents, and
    stores each output tile whole; the inputs are left as they were. -/
theorem sound_kernel (c : Dev nD) (E : Set ℕ) (i : grid0.Coords) (arg2 : Memref sig .tc .vmem S128x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S4x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole)
    (x0 : Vec F S128x4096 .bf16) (x1 x2 x3 x4 : Vec F S4096x256 .f32) (x5 : Vec F S4x256 .f32) (x6 : Vec F S128x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (hiddenTile x0 x1 x2 x3 x4 x5 x6) ∗ owns (c : Thread nD τ) arg10 fullShare (cellTile x0 x1 x2 x3 x4 x5 x6)) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover_tile _)
  iexists _; isplitr
  swap; · iexact H8
  ipureintro
  try dsimp only
  exact View.read_writes_eq_canon _ _ _ (cover_tile _)

/-! ## The pipeline's proof data -/

/-- On core `c`: the arrays as the launch finds them; after the body at point `t` each input buffer at its block and
    each output buffer at its tile value of the seven input blocks; nothing owed, full shares, and the invariant that
    the body touches nothing else. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hiddenTile (iblk m c 0 t) (iblk m c 1 t) (iblk m c 2 t) (iblk m c 3 t) (iblk m c 4 t) (iblk m c 5 t) (iblk m c 6 t)
    | ⟨8, _⟩ => cellTile (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = hiddenTile (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t = cellTile (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body at a grid point -/

/-- What the pipeline hands the body at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At every point the input buffers hold their blocks, so one run of the body applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run, and the frame -/

set_option backward.isDefEq.respectTransparency.types false in
/-- Every weakly fair execution of the program terminates without a fault; at the end each window's array holds what
    the write-backs of the proof data leave, and every other unscoped buffer what it held when the launch began. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Lstm

end
-- ==== Proof.KiFrame.lean ====
import proofs.«159585_j63505386439276_2_alg».proof.Proof.Gen.KernelIdeal.Launch
import proofs.«159585_j63505386439276_2_alg».proof.Proof.Gen.KernelIdeal.Skeleton
import proofs.«159585_j63505386439276_2_alg».proof.Proof.Gen.KernelIdeal.Points
import Idealize.ShloMosaic.Lib.Pipeline.FrameBody
import Idealize.ShloMosaic.Lib.Ring
import Idealize.ShloMosaic.Lib.Tactic

/-!
# The launch of the LSTM-cell kernel runs to its end and leaves its arguments alone

One kernel launch on an 8 × 32 grid (column tile n, row tile m). At point (n, m) the body is handed seven input
blocks — rows 128m … 128m+127 of the concatenated input [h | x] (4096 columns), columns 256n … 256n+255 of each of
the four gate weight matrices, the same columns of the 4 × 2048 bias stack, and tile (m, n) of the cell state — and
fills two output blocks, tile (m, n) of the next hidden state and of the next cell state. Every block is loaded whole,
every output block is stored whole, and nothing is kept from one point to the next. So after the body each output
staging buffer holds one value computed from the seven input blocks (`hiddenTile`, `cellTile`), each input buffer
still holds its block, and the pipeline's run is the library's frame run over that data. The seven host operations
before the launch (the concatenation, its rounding, four row broadcasts and their four-way stack) write only
intermediate buffers, so every argument array is found as launched and ends as launched.
-/

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch begins -/

/-- Core `c`'s buffers when the launch begins: the launch memory after the seven host operations. -/
abbrev V (c : Dev nD) (b : Ref sig .tc) : Buf (Elt F) ((c : Thread nD τ).loc b) :=
  StableHlo.after hostOps0 (fun b => m (c, b)) b

/-- None of the seven host operations allocates. -/
theorem hostOps0_fresh : (hostOps0 : List (HloOp τ sig (Elt F))).Forall fun op => op.fresh = ∅ := by
  simp only [List.Forall]; repeat' constructor

/-- The program is the seven host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation writes argument 10: the launch finds it as it was. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## Blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the pipeline fetched it there or
    kept it from the point before (then the block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the pipeline fetched it there or
    kept it from the point before (then the block index has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the pipeline fetched it there or
    kept it from the point before (then the block index has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether the pipeline fetched it there or
    kept it from the point before (then the block index has not moved). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether the pipeline fetched it there or
    kept it from the point before (then the block index has not moved). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether the pipeline fetched it there or
    kept it from the point before (then the block index has not moved). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether the pipeline fetched it there or
    kept it from the point before (then the block index has not moved). -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a frame run of any proof data over the launch-time arrays: an argument that a window stages is an input, so
    it ends at its launch-time contents; an argument no window stages is not touched by the launch at all; and the
    launch-time contents of either are the launched ones. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 6).trans (((dats 0 c).arrAt_in 6 rfl _).trans ((hA c 6).trans (V_main_arg2 m c))),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).1 3).trans (((dats 0 c).arrAt_in 3 rfl _).trans ((hA c 3).trans (V_main_arg7 m c))),
      ((h c).2 main_arg8 (Pipeline.mem_restRefs_of main_arg8 (by decide) (by decide))).trans (V_main_arg8 m c),
      ((h c).1 4).trans (((dats 0 c).arrAt_in 4 rfl _).trans ((hA c 4).trans (V_main_arg9 m c))),
      ((h c).2 main_arg10 (Pipeline.mem_restRefs_of main_arg10 (by decide) (by decide))).trans (V_main_arg10 m c)⟩) h

/-! ## What the body loads and stores -/

abbrev rInp : Rect S128x4096 := Rect.unit (s := S128x4096) ![0, 0] S128x4096.size inb_S128x4096_S128x4096_0_0
abbrev rW : Rect S4096x256 := Rect.unit (s := S4096x256) ![0, 0] S4096x256.size inb_S4096x256_S4096x256_0_0
abbrev rB0 : Rect S4x256 := Rect.unit (s := S4x256) ![0, 0] S1x256.size inb_S4x256_S1x256_0_0
abbrev rB1 : Rect S4x256 := Rect.unit (s := S4x256) ![1, 0] S1x256.size inb_S4x256_S1x256_1_0
abbrev rB2 : Rect S4x256 := Rect.unit (s := S4x256) ![2, 0] S1x256.size inb_S4x256_S1x256_2_0
abbrev rB3 : Rect S4x256 := Rect.unit (s := S4x256) ![3, 0] S1x256.size inb_S4x256_S1x256_3_0
abbrev rTile : Rect S128x256 := Rect.unit (s := S128x256) ![0, 0] S128x256.size inb_S128x256_S128x256_0_0

/-- The next-cell tile from the seven input blocks: forget gate · cell tile + input gate · candidate, each gate the
    gate function of (input rows · weight columns + bias row). -/
def cellVal (x0 : Vec F S128x4096 .bf16) (x1 x2 x3 x4 : Vec F S4096x256 .f32) (x5 : Vec F S4x256 .f32) (x6 : Vec F S128x256 .f32) : Vec F S128x256 .f32 :=
  k0_pay1 (k0_pay4 (View.ld x0 rInp) (View.ld x1 rW) (View.ld x5 rB0)) (k0_pay5 (View.ld x0 rInp) (View.ld x2 rW) (View.ld x5 rB1))
    (k0_pay7 (View.ld x0 rInp) (View.ld x4 rW) (View.ld x5 rB3)) (View.ld x6 rTile)

/-- The next-hidden tile: output gate · tanh of the next-cell tile. -/
def hiddenVal (x0 : Vec F S128x4096 .bf16) (x1 x2 x3 x4 : Vec F S4096x256 .f32) (x5 : Vec F S4x256 .f32) (x6 : Vec F S128x256 .f32) : Vec F S128x256 .f32 :=
  k0_pay2 (k0_pay4 (View.ld x0 rInp) (View.ld x1 rW) (View.ld x5 rB0)) (k0_pay5 (View.ld x0 rInp) (View.ld x2 rW) (View.ld x5 rB1))
    (k0_pay6 (View.ld x0 rInp) (View.ld x3 rW) (View.ld x5 rB2)) (k0_pay7 (View.ld x0 rInp) (View.ld x4 rW) (View.ld x5 rB3)) (View.ld x6 rTile)

/-- What the body leaves in the next-hidden staging buffer: its one whole-tile store. -/
def hiddenTile (x0 : Vec F S128x4096 .bf16) (x1 x2 x3 x4 : Vec F S4096x256 .f32) (x5 : Vec F S4x256 .f32) (x6 : Vec F S128x256 .f32) : Vec F S128x256 .f32 :=
  View.canon [⟨rTile, hiddenVal x0 x1 x2 x3 x4 x5 x6⟩]

/-- What the body leaves in the next-cell staging buffer: its one whole-tile store. -/
def cellTile (x0 : Vec F S128x4096 .bf16) (x1 x2 x3 x4 : Vec F S4096x256 .f32) (x5 : Vec F S4x256 .f32) (x6 : Vec F S128x256 .f32) : Vec F S128x256 .f32 :=
  View.canon [⟨rTile, cellVal x0 x1 x2 x3 x4 x5 x6⟩]

/-- A whole-tile store covers the tile. -/
theorem cover_tile (p0 : Vec F S128x256 .f32) (y : S128x256.Idx) :
    ∃ pc ∈ ([⟨rTile, p0⟩] : List (View.Piece (Elt F) S128x256 .f32)), y ∈ pc.1.set :=
  View.cover_of_tiled [⟨rTile, p0⟩] S128x256.size (by rfl) y

/-! ## One run of the body -/

set_option maxHeartbeats 4000000 in
/-- The body on whole staging buffers, the seven inputs at contents `x0 … x6` and the two outputs at anything: it
    loads each input whole (the bias buffer one row at a time), loads and discards the outputs' old contents, and
    stores each output tile whole; the inputs are left as they were. -/
theorem sound_kernel (c : Dev nD) (E : Set ℕ) (i : grid0.Coords) (arg2 : Memref sig .tc .vmem S128x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S4x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole)
    (x0 : Vec F S128x4096 .bf16) (x1 x2 x3 x4 : Vec F S4096x256 .f32) (x5 : Vec F S4x256 .f32) (x6 : Vec F S128x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (hiddenTile x0 x1 x2 x3 x4 x5 x6) ∗ owns (c : Thread nD τ) arg10 fullShare (cellTile x0 x1 x2 x3 x4 x5 x6)) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover_tile _)
  iexists _; isplitr
  swap; · iexact H8
  ipureintro
  try dsimp only
  exact View.read_writes_eq_canon _ _ _ (cover_tile _)

/-! ## The pipeline's proof data -/

/-- On core `c`: the arrays as the launch finds them; after the body at point `t` each input buffer at its block and
    each output buffer at its tile value of the seven input blocks; nothing owed, full shares, and the invariant that
    the body touches nothing else. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hiddenTile (iblk m c 0 t) (iblk m c 1 t) (iblk m c 2 t) (iblk m c 3 t) (iblk m c 4 t) (iblk m c 5 t) (iblk m c 6 t)
    | ⟨8, _⟩ => cellTile (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = hiddenTile (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t = cellTile (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body at a grid point -/

/-- What the pipeline hands the body at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At every point the input buffers hold their blocks, so one run of the body applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run, and the frame -/

set_option backward.isDefEq.respectTransparency.types false in
/-- Every weakly fair execution of the program terminates without a fault; at the end each window's array holds what
    the write-backs of the proof data leave, and every other unscoped buffer what it held when the launch began. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Lstm

end
-- ==== Proof.LstmSpec.lean ====
import Idealize.ShloMosaic.PureOps.Ideal
import Idealize.ShloMosaic.Lib.ValueIdx

/-!
# One step of an LSTM cell, entry by entry, on the extended reals

Batch 4096, input width 2048, 2048 units. The concatenated input row `r` is `[h r | x r]` (4096 entries); each
gate's pre-activation at (row `r`, unit `u`) is `∑ k, [h | x] r k · W k u + b u` with that gate's 4096 × 2048
weight matrix and its bias; the forget, input and output gates pass it through the logistic function
`1 / (1 + e^(-z))`, the candidate through `tanh`. Then

  next cell   = forget · cell + input · candidate,
  next hidden = output · tanh (next cell).

Arguments in the programs' order: `x h c Wf bf Wi bi Wo bo Wc bc`.
-/

noncomputable section

open scoped BigOperators

namespace Cert.LstmSpec

open Idealize.ShloMosaic Idealize.ShloMosaic.ValueIdx

/-- A 4096 × 2048 array: the batch-by-width inputs and states, and the (4096 = 2048 + 2048)-by-units weights. -/
abbrev Mat : Type := (⟨2, ![4096, 2048]⟩ : Shape).Idx → EReal
/-- A 2048-vector: one gate's bias. -/
abbrev Vec1 : Type := (⟨1, ![2048]⟩ : Shape).Idx → EReal

/-- Entry `k` of row `r` of the concatenation `[h | x]`: `h r k` for `k < 2048`, else `x r (k - 2048)`. -/
def inp (x h : Mat) (r k : Fin 4096) : EReal :=
  if hk : k.val < 2048 then h (ix2 r (⟨k.val, hk⟩ : Fin 2048)) else x (ix2 r (⟨k.val - 2048, by omega⟩ : Fin 2048))

/-- A gate's pre-activation at row `r`, unit `u`: the row of `[h | x]` against column `u` of `W`, plus the bias. -/
def pre (x h W : Mat) (b : Vec1) (r : Fin 4096) (u : Fin 2048) : EReal :=
  (∑ k : Fin 4096, inp x h r k * W (ix2 k u)) + b (ix1 u)

/-- The next cell state at row `r`, unit `u`. -/
def cellAt (x h c Wf : Mat) (bf : Vec1) (Wi : Mat) (bi : Vec1) (Wc : Mat) (bc : Vec1) (r : Fin 4096) (u : Fin 2048) : EReal :=
  Ideal.logistic (pre x h Wf bf r u) * c (ix2 r u) + Ideal.logistic (pre x h Wi bi r u) * Ideal.tanh (pre x h Wc bc r u)

/-- The next hidden state at row `r`, unit `u`. -/
def hiddenAt (x h c Wf : Mat) (bf : Vec1) (Wi : Mat) (bi : Vec1) (Wo : Mat) (bo : Vec1) (Wc : Mat) (bc : Vec1) (r : Fin 4096) (u : Fin 2048) : EReal :=
  Ideal.logistic (pre x h Wo bo r u) * Ideal.tanh (cellAt x h c Wf bf Wi bi Wc bc r u)

/-- The next cell state as an array. -/
def cell (x h c Wf : Mat) (bf : Vec1) (Wi : Mat) (bi : Vec1) (Wo : Mat) (bo : Vec1) (Wc : Mat) (bc : Vec1) : Mat :=
  fun j => cellAt x h c Wf bf Wi bi Wc bc (j 0) (j 1)

/-- The next hidden state as an array. -/
def hidden (x h c Wf : Mat) (bf : Vec1) (Wi : Mat) (bi : Vec1) (Wo : Mat) (bo : Vec1) (Wc : Mat) (bc : Vec1) : Mat :=
  fun j => hiddenAt x h c Wf bf Wi bi Wo bo Wc bc (j 0) (j 1)

end Cert.LstmSpec

end
-- ==== Proof.KiPayload.lean ====
import proofs.«159585_j63505386439276_2_alg».proof.Proof.KiFrame
import proofs.«159585_j63505386439276_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

/-!
# One tile of the LSTM cell, entry by entry

At a grid point the body holds a 128 × 4096 block `a` of the concatenated input, four 4096 × 256 weight blocks, a
4 × 256 bias block `b` and a 128 × 256 block `c` of the cell state. On the extended reals the rounding of the weights
to bf16 is the identity and a matrix product into a zero accumulator is the plain sum, so entry (p, q) of gate `g`'s
pre-activation is `∑ k, a p k · w_g k q + b g q`, and the two stored tiles are the cell equations applied entry by entry.
-/

noncomputable section

open scoped BigOperators

namespace Cert.KernelIdeal.Lstm

open Cert.KernelIdeal Cert.KernelIdeal.Gen Idealize.ShloMosaic Idealize.ShloMosaic.ValueIdx

/-- The tile product's dimension numbers: contract axis 1 of the left with axis 0 of the right. -/
abbrev D := dot_S128x4096_S4096x256_S128x256_1_0_0_1_n_n

theorem D_lhs0 (i : S128x256.Idx) (κ : D.contr.Idx) : (D.lhsIdx i κ 0).val = (i 0).val := by
  unfold DotDims.lhsIdx
  rw [dif_neg (show ¬(0 : Fin S128x4096.rank) ∈ D.lhsBatch by decide), dif_pos (show (0 : Fin S128x4096.rank) ∈ D.lhsNonContracting by decide)]
  rfl
theorem D_lhs1 (i : S128x256.Idx) (κ : D.contr.Idx) : (D.lhsIdx i κ 1).val = (κ ⟨0, by decide⟩).val :=
  D.lhsIdx_val_of_single rfl i κ
theorem D_rhs0 (i : S128x256.Idx) (κ : D.contr.Idx) : (D.rhsIdx i κ 0).val = (κ ⟨0, by decide⟩).val :=
  D.rhsIdx_val_of_single rfl i κ
theorem D_rhs1 (i : S128x256.Idx) (κ : D.contr.Idx) : (D.rhsIdx i κ 1).val = (i 1).val := by
  unfold DotDims.rhsIdx
  rw [dif_neg (show ¬(1 : Fin S4096x256.rank) ∈ D.rhsBatch by decide), dif_pos (show (1 : Fin S4096x256.rank) ∈ D.rhsNonContracting by decide)]
  rfl

/-- A 128 × 4096 by 4096 × 256 product into zero, at entry (p, q): the sum over the 4096 shared coordinates. -/
theorem tile_matmul (lhs : FVec Ideal S128x4096 .bf16) (rhs : FVec Ideal S4096x256 .bf16) (p : Fin 128) (q : Fin 256) :
    matmul D none lhs rhs (constant S128x256 .f32 0x00000000#32) (ix2 p q) = ∑ k : Fin 4096, lhs (ix2 p k) * rhs (ix2 k q) := by
  refine (Ideal.matmul_constant_zero_apply D none lhs rhs (ix2 p q)).trans ?_
  rw [← Equiv.sum_comp (ValueIdx.contrEquiv1 D 4096 rfl rfl).symm]
  refine Finset.sum_congr rfl fun k _ => ?_
  have hk := ValueIdx.contrEquiv1_symm_val D 4096 rfl rfl k
  have el : D.lhsIdx (ix2 p q) ((ValueIdx.contrEquiv1 D 4096 rfl rfl).symm k) = ix2 p k := funext fun a => Fin.ext (by
    match a with
    | ⟨0, _⟩ => exact D_lhs0 _ _
    | ⟨1, _⟩ => exact (D_lhs1 _ _).trans hk)
  have er : D.rhsIdx (ix2 p q) ((ValueIdx.contrEquiv1 D 4096 rfl rfl).symm k) = ix2 k q := funext fun a => Fin.ext (by
    match a with
    | ⟨0, _⟩ => exact (D_rhs0 _ _).trans hk
    | ⟨1, _⟩ => exact D_rhs1 _ _)
  rw [el, er]

/-- A 1 × 256 row spread over 128 rows, at (p, q): the row at q. -/
theorem row_spread (b : FVec Ideal S1x256 .f32) (p : Fin 128) (q : Fin 256) :
    broadcastTo S128x256 (shapeCast S1x256 b shapeCasts_S1x256_S1x256) broadcasts_S1x256_S128x256 (ix2 p q) = b (ix2 (0 : Fin 1) q) := by
  rw [shapeCast_self]
  refine broadcastTo_apply b _ (ix2 p q) (ix2 (0 : Fin 1) q) (fun a => ?_)
  match a with
  | ⟨0, _⟩ => rfl
  | ⟨1, _⟩ => rfl

/-- One gate's pre-activation at (p, q). -/
theorem gate_pre (a : Vec Ideal S128x4096 .bf16) (w : Vec Ideal S4096x256 .f32) (b : Vec Ideal S1x256 .f32) (p : Fin 128) (q : Fin 256) :
    addf (matmul D none (k0_pay3 (F := Ideal) a) (truncf .bf16 w bitsLt_bf16_f32) (constant S128x256 .f32 0x00000000#32))
        (broadcastTo S128x256 (shapeCast S1x256 b shapeCasts_S1x256_S1x256) broadcasts_S1x256_S128x256) (ix2 p q)
      = (∑ k : Fin 4096, a (ix2 p k) * w (ix2 k q)) + b (ix2 (0 : Fin 1) q) := by
  refine (addf_apply _ _ _).trans ?_
  rw [row_spread]
  refine congrArg (· + b (ix2 (0 : Fin 1) q)) ?_
  refine (tile_matmul _ _ p q).trans ?_
  refine Finset.sum_congr rfl fun k _ => ?_
  unfold k0_pay3
  rw [shapeCast_self]
  rfl

/-- The three logistic gates at (p, q) … -/
theorem pay4_apply (a : Vec Ideal S128x4096 .bf16) (w : Vec Ideal S4096x256 .f32) (b : Vec Ideal S1x256 .f32) (p : Fin 128) (q : Fin 256) :
    k0_pay4 (F := Ideal) a w b (ix2 p q) = Ideal.logistic ((∑ k : Fin 4096, a (ix2 p k) * w (ix2 k q)) + b (ix2 (0 : Fin 1) q)) :=
  congrArg Ideal.logistic (gate_pre a w b p q)
theorem pay5_apply (a : Vec Ideal S128x4096 .bf16) (w : Vec Ideal S4096x256 .f32) (b : Vec Ideal S1x256 .f32) (p : Fin 128) (q : Fin 256) :
    k0_pay5 (F := Ideal) a w b (ix2 p q) = Ideal.logistic ((∑ k : Fin 4096, a (ix2 p k) * w (ix2 k q)) + b (ix2 (0 : Fin 1) q)) :=
  congrArg Ideal.logistic (gate_pre a w b p q)
theorem pay6_apply (a : Vec Ideal S128x4096 .bf16) (w : Vec Ideal S4096x256 .f32) (b : Vec Ideal S1x256 .f32) (p : Fin 128) (q : Fin 256) :
    k0_pay6 (F := Ideal) a w b (ix2 p q) = Ideal.logistic ((∑ k : Fin 4096, a (ix2 p k) * w (ix2 k q)) + b (ix2 (0 : Fin 1) q)) :=
  congrArg Ideal.logistic (gate_pre a w b p q)
/-- … and the candidate. -/
theorem pay7_apply (a : Vec Ideal S128x4096 .bf16) (w : Vec Ideal S4096x256 .f32) (b : Vec Ideal S1x256 .f32) (p : Fin 128) (q : Fin 256) :
    k0_pay7 (F := Ideal) a w b (ix2 p q) = Ideal.tanh ((∑ k : Fin 4096, a (ix2 p k) * w (ix2 k q)) + b (ix2 (0 : Fin 1) q)) :=
  congrArg Ideal.tanh (gate_pre a w b p q)

/-- Row `g` of the 4 × 256 bias block, loaded as a 1 × 256 vector, at q. -/
theorem bias_row0 (b : Vec Ideal S4x256 .f32) (q : Fin 256) : View.ld b rB0 (ix2 (0 : Fin 1) q) = b (ix2 (0 : Fin 4) q) :=
  congrArg b (funext fun a => Fin.ext (by
    match a with
    | ⟨0, _⟩ => rfl
    | ⟨1, _⟩ => show (0 : Nat) + 1 * q.val = q.val; omega))
theorem bias_row1 (b : Vec Ideal S4x256 .f32) (q : Fin 256) : View.ld b rB1 (ix2 (0 : Fin 1) q) = b (ix2 (1 : Fin 4) q) :=
  congrArg b (funext fun a => Fin.ext (by
    match a with
    | ⟨0, _⟩ => rfl
    | ⟨1, _⟩ => show (0 : Nat) + 1 * q.val = q.val; omega))
theorem bias_row2 (b : Vec Ideal S4x256 .f32) (q : Fin 256) : View.ld b rB2 (ix2 (0 : Fin 1) q) = b (ix2 (2 : Fin 4) q) :=
  congrArg b (funext fun a => Fin.ext (by
    match a with
    | ⟨0, _⟩ => rfl
    | ⟨1, _⟩ => show (0 : Nat) + 1 * q.val = q.val; omega))
theorem bias_row3 (b : Vec Ideal S4x256 .f32) (q : Fin 256) : View.ld b rB3 (ix2 (0 : Fin 1) q) = b (ix2 (3 : Fin 4) q) :=
  congrArg b (funext fun a => Fin.ext (by
    match a with
    | ⟨0, _⟩ => rfl
    | ⟨1, _⟩ => show (0 : Nat) + 1 * q.val = q.val; omega))

theorem hz : (![0, 0] : Fin 2 → Nat) = fun _ => 0 := funext fun a => by fin_cases a <;> rfl

/-- Gate `g`'s pre-activation of a tile's blocks at (p, q). -/
def tilePre (a : Vec Ideal S128x4096 .bf16) (w : Vec Ideal S4096x256 .f32) (b : Vec Ideal S4x256 .f32) (g : Fin 4) (p : Fin 128) (q : Fin 256) : EReal :=
  (∑ k : Fin 4096, a (ix2 p k) * w (ix2 k q)) + b (ix2 g q)

/-- The next-cell tile at (p, q). -/
theorem cellVal_apply (x0 : Vec Ideal S128x4096 .bf16) (x1 x2 x3 x4 : Vec Ideal S4096x256 .f32) (x5 : Vec Ideal S4x256 .f32) (x6 : Vec Ideal S128x256 .f32)
    (p : Fin 128) (q : Fin 256) :
    cellVal (F := Ideal) x0 x1 x2 x3 x4 x5 x6 (ix2 p q)
      = Ideal.logistic (tilePre x0 x1 x5 0 p q) * x6 (ix2 p q) + Ideal.logistic (tilePre x0 x2 x5 1 p q) * Ideal.tanh (tilePre x0 x4 x5 3 p q) := by
  unfold cellVal k0_pay1 tilePre
  simp only [View.ld_unit_zero (S := S128x4096) hz, View.ld_unit_zero (S := S4096x256) hz, View.ld_unit_zero (S := S128x256) hz]
  refine (addf_apply _ _ _).trans ?_
  refine congrArg₂ (· + ·) ((mulf_apply _ _ _).trans ?_) ((mulf_apply _ _ _).trans ?_)
  · rw [pay4_apply, bias_row0]
  · rw [pay5_apply, pay7_apply, bias_row1, bias_row3]

/-- The next-hidden tile at (p, q). -/
theorem hiddenVal_apply (x0 : Vec Ideal S128x4096 .bf16) (x1 x2 x3 x4 : Vec Ideal S4096x256 .f32) (x5 : Vec Ideal S4x256 .f32) (x6 : Vec Ideal S128x256 .f32)
    (p : Fin 128) (q : Fin 256) :
    hiddenVal (F := Ideal) x0 x1 x2 x3 x4 x5 x6 (ix2 p q)
      = Ideal.logistic (tilePre x0 x3 x5 2 p q) * Ideal.tanh (cellVal (F := Ideal) x0 x1 x2 x3 x4 x5 x6 (ix2 p q)) := by
  unfold hiddenVal k0_pay2
  refine (mulf_apply _ _ _).trans ?_
  refine congrArg₂ (· * ·) ?_ rfl
  simp only [View.ld_unit_zero (S := S128x4096) hz, View.ld_unit_zero (S := S4096x256) hz]
  rw [pay6_apply, bias_row2]
  rfl

end Cert.KernelIdeal.Lstm

end
-- ==== Proof.KiHost.lean ====
import proofs.«159585_j63505386439276_2_alg».proof.Proof.KiFrame
import proofs.«159585_j63505386439276_2_alg».proof.Proof.LstmSpec
import Idealize.ShloMosaic.Lib.Pipeline.Value
import Idealize.ShloMosaic.Lib.ValueIdx
import Idealize.ShloMosaic.Lib.StableHlo.Run

/-!
# What the launch finds in the two arrays the host prepared

The seven host operations before the launch build two arrays the kernel's windows read: the concatenation
`[h | x]` (4096 × 4096, then rounded to bf16 — the identity on extended reals) and the 4 × 2048 stack of the four
bias vectors, each first made a 1 × 2048 row. Read at an index: entry (r, k) of the first is `h r k` for k < 2048 and
`x r (k − 2048)` otherwise; entry (g, u) of the second is entry `u` of the `g`-th bias (forget, input, output,
candidate).
-/

noncomputable section

namespace Cert.KernelIdeal.Lstm

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The concatenated, rounded input as the launch finds it. -/
theorem V_inp (c : Dev nD) : (V m c main_v1 : S4096x4096.Idx → EReal)
    = truncf (F := Ideal) .bf16 (concatenate S4096x4096 1 [⟨S4096x2048, ((m ((c : Thread nD τ).loc main_arg1)) : S4096x2048.Idx → EReal)⟩, ⟨S4096x2048, ((m ((c : Thread nD τ).loc main_arg0)) : S4096x2048.Idx → EReal)⟩] concatenates_S4096x2048_S4096x2048_S4096x4096_d1) bitsLt_bf16_f32 := by
  dsimp only [V, hostOps0]
  after_results
  try rfl

/-- Entry (r, k) of it is entry k of the row `[h r | x r]`. -/
theorem V_inp_apply (c : Dev nD) (r k : Fin 4096) :
    (V m c main_v1 : S4096x4096.Idx → EReal) (ix2 r k) = Cert.LstmSpec.inp (m ((c : Thread nD τ).loc main_arg0)) (m ((c : Thread nD τ).loc main_arg1)) r k := by
  rw [V_inp]
  show concatenate S4096x4096 1 [⟨S4096x2048, ((m ((c : Thread nD τ).loc main_arg1)) : S4096x2048.Idx → EReal)⟩, ⟨S4096x2048, ((m ((c : Thread nD τ).loc main_arg0)) : S4096x2048.Idx → EReal)⟩] concatenates_S4096x2048_S4096x2048_S4096x4096_d1 (ix2 r k) = _
  unfold Cert.LstmSpec.inp
  by_cases hk : k.val < 2048
  · rw [dif_pos hk]
    exact concatenate_pair_apply_left (s₁ := S4096x2048) (s₂ := S4096x2048) (1 : Fin S4096x4096.rank) _ _ _ (ix2 r k) rfl (ix2 r (⟨k.val, hk⟩ : Fin 2048))
      (fun b => by match b with | ⟨0, _⟩ => rfl | ⟨1, _⟩ => rfl)
  · rw [dif_neg hk]
    exact concatenate_pair_apply_right (s₁ := S4096x2048) (s₂ := S4096x2048) (1 : Fin S4096x4096.rank) _ _ _ (ix2 r k) rfl rfl (ix2 r (⟨k.val - 2048, by omega⟩ : Fin 2048))
      (fun b hb => by match b with | ⟨0, _⟩ => rfl | ⟨1, _⟩ => exact absurd rfl hb)
      (by show k.val - 2048 + 2048 = k.val; omega)

/-- The `g`-th bias vector, in the order the stack lists them. -/
def biasOf (c : Dev nD) : Fin 4 → (S2048.Idx → EReal)
  | 0 => (m ((c : Thread nD τ).loc main_arg4))
  | 1 => (m ((c : Thread nD τ).loc main_arg6))
  | 2 => (m ((c : Thread nD τ).loc main_arg8))
  | 3 => (m ((c : Thread nD τ).loc main_arg10))

/-- The `g`-th bias as a 1 × 2048 row. -/
def biasRow (c : Dev nD) (g : Fin 4) : S1x2048.Idx → EReal :=
  broadcastInDim S1x2048 ![1] bcast_S2048_S1x2048_1 (biasOf m c g)

/-- The bias stack as the launch finds it. -/
theorem V_bias (c : Dev nD) : (V m c main_v6 : S4x2048.Idx → EReal)
    = concatenate S4x2048 0 (List.ofFn fun g : Fin 4 => (⟨S1x2048, biasRow m c g⟩ : (s : Shape) × (s.Idx → EReal))) concatenates_S1x2048_S1x2048_S1x2048_S1x2048_S4x2048_d0 := by
  dsimp only [V, hostOps0]
  after_results
  try rfl

/-- Entry (g, u) of the stack is entry u of the g-th bias. -/
theorem V_bias_apply (c : Dev nD) (g : Fin 4) (u : Fin 2048) :
    (V m c main_v6 : S4x2048.Idx → EReal) (ix2 g u) = biasOf m c g (ix1 u) := by
  rw [V_bias]
  refine (concatenate_ofFn_unit_apply (s₁ := S1x2048) (0 : Fin S4x2048.rank) (fun g : Fin 4 => biasRow m c g) _ rfl rfl (ix2 g u) g rfl (ix2 (0 : Fin 1) u)
    (fun b hb => by match b with | ⟨0, _⟩ => exact absurd rfl hb | ⟨1, _⟩ => rfl)).trans ?_
  unfold biasRow
  exact broadcastInDim_apply ![1] bcast_S2048_S1x2048_1 (biasOf m c g) (ix2 (0 : Fin 1) u) (ix1 u)
    (fun a => by match a with | ⟨0, _⟩ => rfl)

end Cert.KernelIdeal.Lstm

end
-- ==== Proof.KiTile.lean ====
import proofs.«159585_j63505386439276_2_alg».proof.Proof.KiPayload
import proofs.«159585_j63505386439276_2_alg».proof.Proof.KiHost
import Idealize.ShloMosaic.Lib.Pipeline.Value

/-!
# The two result arrays after the run

Grid point (n, m) writes back tile (m, n) of each result: rows 128m … 128m+127, columns 256n … 256n+255. Its input
blocks are rows 128m … of `[h | x]`, columns 256n … of each weight matrix and of the bias stack, and tile (m, n) of
the cell state; so entry (p, q) of what it writes is the cell step's entry (128m + p, 256n + q) — the sums over the
4096 shared coordinates are the same sums. The 32 × 8 tiles cover the 4096 × 2048 arrays, so after the run each result
array is the cell step's array.
-/

set_option maxRecDepth 16384

noncomputable section

open scoped BigOperators

namespace Cert.KernelIdeal.Lstm

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## A tile's values from blocks that are pieces of whole arrays -/

/-- If the seven blocks are the pieces at row offset `128 r0` and column offset `256 u0` of `[h | x]`, the four weight
    matrices, the bias stack and the cell state, the stored cell tile's entry (p, q) is the cell step's entry
    (128 r0 + p, 256 u0 + q). -/
theorem cell_point (X0 : Vec Ideal S128x4096 .bf16) (X1 X2 X3 X4 : Vec Ideal S4096x256 .f32) (X5 : Vec Ideal S4x256 .f32) (X6 : Vec Ideal S128x256 .f32)
    (x h cs Wf : Cert.LstmSpec.Mat) (bf : Cert.LstmSpec.Vec1) (Wi : Cert.LstmSpec.Mat) (bi : Cert.LstmSpec.Vec1) (Wo : Cert.LstmSpec.Mat) (bo : Cert.LstmSpec.Vec1)
    (Wc : Cert.LstmSpec.Mat) (bc : Cert.LstmSpec.Vec1) (r0 u0 : Nat) (hr0 : r0 ≤ 31) (hu0 : u0 ≤ 7)
    (h0 : ∀ (p : Fin 128) (k : Fin 4096), X0 (ix2 p k) = Cert.LstmSpec.inp x h (⟨r0 * 128 + p.val, by omega⟩ : Fin 4096) k)
    (h1 : ∀ (k : Fin 4096) (q : Fin 256), X1 (ix2 k q) = Wf (ix2 k (⟨u0 * 256 + q.val, by omega⟩ : Fin 2048)))
    (h2 : ∀ (k : Fin 4096) (q : Fin 256), X2 (ix2 k q) = Wi (ix2 k (⟨u0 * 256 + q.val, by omega⟩ : Fin 2048)))
    (h4 : ∀ (k : Fin 4096) (q : Fin 256), X4 (ix2 k q) = Wc (ix2 k (⟨u0 * 256 + q.val, by omega⟩ : Fin 2048)))
    (h5f : ∀ q : Fin 256, X5 (ix2 (0 : Fin 4) q) = bf (ix1 (⟨u0 * 256 + q.val, by omega⟩ : Fin 2048)))
    (h5i : ∀ q : Fin 256, X5 (ix2 (1 : Fin 4) q) = bi (ix1 (⟨u0 * 256 + q.val, by omega⟩ : Fin 2048)))
    (h5c : ∀ q : Fin 256, X5 (ix2 (3 : Fin 4) q) = bc (ix1 (⟨u0 * 256 + q.val, by omega⟩ : Fin 2048)))
    (h6 : ∀ (p : Fin 128) (q : Fin 256), X6 (ix2 p q) = cs (ix2 (⟨r0 * 128 + p.val, by omega⟩ : Fin 4096) (⟨u0 * 256 + q.val, by omega⟩ : Fin 2048)))
    (p : Fin 128) (q : Fin 256) :
    cellVal (F := Ideal) X0 X1 X2 X3 X4 X5 X6 (ix2 p q)
      = Cert.LstmSpec.cellAt x h cs Wf bf Wi bi Wc bc (⟨r0 * 128 + p.val, by omega⟩ : Fin 4096) (⟨u0 * 256 + q.val, by omega⟩ : Fin 2048) := by
  rw [cellVal_apply]
  unfold tilePre Cert.LstmSpec.cellAt Cert.LstmSpec.pre
  simp only [h0, h1, h2, h4, h5f, h5i, h5c, h6]

/-- The same for the stored hidden tile. -/
theorem hidden_point (X0 : Vec Ideal S128x4096 .bf16) (X1 X2 X3 X4 : Vec Ideal S4096x256 .f32) (X5 : Vec Ideal S4x256 .f32) (X6 : Vec Ideal S128x256 .f32)
    (x h cs Wf : Cert.LstmSpec.Mat) (bf : Cert.LstmSpec.Vec1) (Wi : Cert.LstmSpec.Mat) (bi : Cert.LstmSpec.Vec1) (Wo : Cert.LstmSpec.Mat) (bo : Cert.LstmSpec.Vec1)
    (Wc : Cert.LstmSpec.Mat) (bc : Cert.LstmSpec.Vec1) (r0 u0 : Nat) (hr0 : r0 ≤ 31) (hu0 : u0 ≤ 7)
    (h0 : ∀ (p : Fin 128) (k : Fin 4096), X0 (ix2 p k) = Cert.LstmSpec.inp x h (⟨r0 * 128 + p.val, by omega⟩ : Fin 4096) k)
    (h1 : ∀ (k : Fin 4096) (q : Fin 256), X1 (ix2 k q) = Wf (ix2 k (⟨u0 * 256 + q.val, by omega⟩ : Fin 2048)))
    (h2 : ∀ (k : Fin 4096) (q : Fin 256), X2 (ix2 k q) = Wi (ix2 k (⟨u0 * 256 + q.val, by omega⟩ : Fin 2048)))
    (h3 : ∀ (k : Fin 4096) (q : Fin 256), X3 (ix2 k q) = Wo (ix2 k (⟨u0 * 256 + q.val, by omega⟩ : Fin 2048)))
    (h4 : ∀ (k : Fin 4096) (q : Fin 256), X4 (ix2 k q) = Wc (ix2 k (⟨u0 * 256 + q.val, by omega⟩ : Fin 2048)))
    (h5f : ∀ q : Fin 256, X5 (ix2 (0 : Fin 4) q) = bf (ix1 (⟨u0 * 256 + q.val, by omega⟩ : Fin 2048)))
    (h5i : ∀ q : Fin 256, X5 (ix2 (1 : Fin 4) q) = bi (ix1 (⟨u0 * 256 + q.val, by omega⟩ : Fin 2048)))
    (h5o : ∀ q : Fin 256, X5 (ix2 (2 : Fin 4) q) = bo (ix1 (⟨u0 * 256 + q.val, by omega⟩ : Fin 2048)))
    (h5c : ∀ q : Fin 256, X5 (ix2 (3 : Fin 4) q) = bc (ix1 (⟨u0 * 256 + q.val, by omega⟩ : Fin 2048)))
    (h6 : ∀ (p : Fin 128) (q : Fin 256), X6 (ix2 p q) = cs (ix2 (⟨r0 * 128 + p.val, by omega⟩ : Fin 4096) (⟨u0 * 256 + q.val, by omega⟩ : Fin 2048)))
    (p : Fin 128) (q : Fin 256) :
    hiddenVal (F := Ideal) X0 X1 X2 X3 X4 X5 X6 (ix2 p q)
      = Cert.LstmSpec.hiddenAt x h cs Wf bf Wi bi Wo bo Wc bc (⟨r0 * 128 + p.val, by omega⟩ : Fin 4096) (⟨u0 * 256 + q.val, by omega⟩ : Fin 2048) := by
  rw [hiddenVal_apply, cell_point X0 X1 X2 X3 X4 X5 X6 x h cs Wf bf Wi bi Wo bo Wc bc r0 u0 hr0 hu0 h0 h1 h2 h4 h5f h5i h5c h6 p q]
  unfold tilePre Cert.LstmSpec.hiddenAt Cert.LstmSpec.pre
  simp only [h0, h3, h5o]

/-! ## The printed index maps over the grid -/

/-- At every grid point: the input rows move with the output tile's row index and take all 4096 columns; the weight and
    bias blocks take all rows and move with the output tile's column index; the cell block and both output blocks are
    the same tile; the tile indices stay below 32 and 8. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = win0_7.index t (1 : Fin 2)
    ∧ win0_2.index t (0 : Fin 2) = 0 ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = win0_7.index t (0 : Fin 2) ∧ win0_6.index t (1 : Fin 2) = win0_7.index t (1 : Fin 2)
    ∧ win0_8.index t (0 : Fin 2) = win0_7.index t (0 : Fin 2) ∧ win0_8.index t (1 : Fin 2) = win0_7.index t (1 : Fin 2)
    ∧ win0_7.index t (0 : Fin 2) ≤ 31 ∧ win0_7.index t (1 : Fin 2) ≤ 7 :=
  (by decide +kernel : ∀ t : Fin grid0.N, _)

/-- Every one of the 32 × 8 tiles is some grid point's. -/
theorem idx_onto : ∀ (q0 : Fin 32) (q1 : Fin 8), ∃ t : Fin cfg0.N, win0_7.index t = ![q0.val, q1.val] ∧ win0_8.index t = ![q0.val, q1.val] :=
  (by decide +kernel : ∀ (q0 : Fin 32) (q1 : Fin 8), ∃ t : Fin grid0.N, win0_7.index t = ![q0.val, q1.val] ∧ win0_8.index t = ![q0.val, q1.val])

end Cert.KernelIdeal.Lstm

end
-- ==== Proof.KiValue.lean ====
import proofs.«159585_j63505386439276_2_alg».proof.Proof.KiTile
import proofs.«159585_j63505386439276_2_alg».proof.Proof.KiHost
import Idealize.ShloMosaic.Lib.Pipeline.Value

/-!
# After the run the two result arrays are the cell step of the launched arguments

Each window's block at a grid point is a piece of its whole array at the tile's row and column offsets; with the
tile lemmas this makes what a point writes back the matching tile of the cell step's arrays; the tiles cover the
arrays; and the library's frame run then ends with each result array at the cell step's array and every argument
as launched.
-/

set_option maxRecDepth 16384

noncomputable section

namespace Cert.KernelIdeal.Lstm

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The next hidden state of the launched arguments on core `c`. -/
def hiddenSpec (c : Dev nD) : S4096x2048.Idx → EReal := Cert.LstmSpec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The next cell state of the launched arguments on core `c`. -/
def cellSpec (c : Dev nD) : S4096x2048.Idx → EReal := Cert.LstmSpec.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## Each input block is a piece of its array -/

/-- The input block at a point in row tile `r0`: rows 128 r0 … of `[h | x]`, all 4096 columns. -/
theorem blk0 (c : Dev nD) (t : Fin cfg0.N) (r0 : Nat) (hr0 : r0 ≤ 31) (e0 : win0_0.index t (0 : Fin 2) = r0) (e1 : win0_0.index t (1 : Fin 2) = 0)
    (p : Fin 128) (k : Fin 4096) :
    iblk m c 0 t (ix2 p k) = Cert.LstmSpec.inp (m ((c : Thread nD τ).loc main_arg0)) (m ((c : Thread nD τ).loc main_arg1)) (⟨r0 * 128 + p.val, by omega⟩ : Fin 4096) k := by
  have e : ((cfg0.win 0).blk t).view.emb (ix2 p k) = ix2 (⟨r0 * 128 + p.val, by omega⟩ : Fin 4096) k := funext fun a => Fin.ext (by
    match a with
    | ⟨0, _⟩ => show win0_0.index t (0 : Fin 2) * 128 + 1 * p.val = r0 * 128 + p.val; omega
    | ⟨1, _⟩ => show win0_0.index t (1 : Fin 2) * 4096 + 1 * k.val = k.val; omega)
  show (V m c main_v1 : S4096x4096.Idx → EReal) (((cfg0.win 0).blk t).view.emb (ix2 p k)) = _
  rw [e, V_inp_apply]

/-- The block of weight matrix 1 at a point in column tile `u0`: all 4096 rows, columns 256 u0 … . -/
theorem blk1 (c : Dev nD) (t : Fin cfg0.N) (u0 : Nat) (hu0 : u0 ≤ 7) (e0 : win0_1.index t (0 : Fin 2) = 0) (e1 : win0_1.index t (1 : Fin 2) = u0)
    (k : Fin 4096) (q : Fin 256) :
    iblk m c 1 t (ix2 k q) = (m ((c : Thread nD τ).loc main_arg3)) (ix2 k (⟨u0 * 256 + q.val, by omega⟩ : Fin 2048)) := by
  have e : ((cfg0.win 1).blk t).view.emb (ix2 k q) = ix2 k (⟨u0 * 256 + q.val, by omega⟩ : Fin 2048) := funext fun a => Fin.ext (by
    match a with
    | ⟨0, _⟩ => show win0_1.index t (0 : Fin 2) * 4096 + 1 * k.val = k.val; omega
    | ⟨1, _⟩ => show win0_1.index t (1 : Fin 2) * 256 + 1 * q.val = u0 * 256 + q.val; omega)
  show V m c main_arg3 (((cfg0.win 1).blk t).view.emb (ix2 k q)) = _
  rw [e, V_main_arg3]

/-- The block of weight matrix 2 at a point in column tile `u0`: all 4096 rows, columns 256 u0 … . -/
theorem blk2 (c : Dev nD) (t : Fin cfg0.N) (u0 : Nat) (hu0 : u0 ≤ 7) (e0 : win0_2.index t (0 : Fin 2) = 0) (e1 : win0_2.index t (1 : Fin 2) = u0)
    (k : Fin 4096) (q : Fin 256) :
    iblk m c 2 t (ix2 k q) = (m ((c : Thread nD τ).loc main_arg5)) (ix2 k (⟨u0 * 256 + q.val, by omega⟩ : Fin 2048)) := by
  have e : ((cfg0.win 2).blk t).view.emb (ix2 k q) = ix2 k (⟨u0 * 256 + q.val, by omega⟩ : Fin 2048) := funext fun a => Fin.ext (by
    match a with
    | ⟨0, _⟩ => show win0_2.index t (0 : Fin 2) * 4096 + 1 * k.val = k.val; omega
    | ⟨1, _⟩ => show win0_2.index t (1 : Fin 2) * 256 + 1 * q.val = u0 * 256 + q.val; omega)
  show V m c main_arg5 (((cfg0.win 2).blk t).view.emb (ix2 k q)) = _
  rw [e, V_main_arg5]

/-- The block of weight matrix 3 at a point in column tile `u0`: all 4096 rows, columns 256 u0 … . -/
theorem blk3 (c : Dev nD) (t : Fin cfg0.N) (u0 : Nat) (hu0 : u0 ≤ 7) (e0 : win0_3.index t (0 : Fin 2) = 0) (e1 : win0_3.index t (1 : Fin 2) = u0)
    (k : Fin 4096) (q : Fin 256) :
    iblk m c 3 t (ix2 k q) = (m ((c : Thread nD τ).loc main_arg7)) (ix2 k (⟨u0 * 256 + q.val, by omega⟩ : Fin 2048)) := by
  have e : ((cfg0.win 3).blk t).view.emb (ix2 k q) = ix2 k (⟨u0 * 256 + q.val, by omega⟩ : Fin 2048) := funext fun a => Fin.ext (by
    match a with
    | ⟨0, _⟩ => show win0_3.index t (0 : Fin 2) * 4096 + 1 * k.val = k.val; omega
    | ⟨1, _⟩ => show win0_3.index t (1 : Fin 2) * 256 + 1 * q.val = u0 * 256 + q.val; omega)
  show V m c main_arg7 (((cfg0.win 3).blk t).view.emb (ix2 k q)) = _
  rw [e, V_main_arg7]

/-- The block of weight matrix 4 at a point in column tile `u0`: all 4096 rows, columns 256 u0 … . -/
theorem blk4 (c : Dev nD) (t : Fin cfg0.N) (u0 : Nat) (hu0 : u0 ≤ 7) (e0 : win0_4.index t (0 : Fin 2) = 0) (e1 : win0_4.index t (1 : Fin 2) = u0)
    (k : Fin 4096) (q : Fin 256) :
    iblk m c 4 t (ix2 k q) = (m ((c : Thread nD τ).loc main_arg9)) (ix2 k (⟨u0 * 256 + q.val, by omega⟩ : Fin 2048)) := by
  have e : ((cfg0.win 4).blk t).view.emb (ix2 k q) = ix2 k (⟨u0 * 256 + q.val, by omega⟩ : Fin 2048) := funext fun a => Fin.ext (by
    match a with
    | ⟨0, _⟩ => show win0_4.index t (0 : Fin 2) * 4096 + 1 * k.val = k.val; omega
    | ⟨1, _⟩ => show win0_4.index t (1 : Fin 2) * 256 + 1 * q.val = u0 * 256 + q.val; omega)
  show V m c main_arg9 (((cfg0.win 4).blk t).view.emb (ix2 k q)) = _
  rw [e, V_main_arg9]

/-- The bias block at a point in column tile `u0`: all four rows, columns 256 u0 … . -/
theorem blk5 (c : Dev nD) (t : Fin cfg0.N) (u0 : Nat) (hu0 : u0 ≤ 7) (e0 : win0_5.index t (0 : Fin 2) = 0) (e1 : win0_5.index t (1 : Fin 2) = u0)
    (g : Fin 4) (q : Fin 256) :
    iblk m c 5 t (ix2 g q) = biasOf m c g (ix1 (⟨u0 * 256 + q.val, by omega⟩ : Fin 2048)) := by
  have e : ((cfg0.win 5).blk t).view.emb (ix2 g q) = ix2 g (⟨u0 * 256 + q.val, by omega⟩ : Fin 2048) := funext fun a => Fin.ext (by
    match a with
    | ⟨0, _⟩ => show win0_5.index t (0 : Fin 2) * 4 + 1 * g.val = g.val; omega
    | ⟨1, _⟩ => show win0_5.index t (1 : Fin 2) * 256 + 1 * q.val = u0 * 256 + q.val; omega)
  show (V m c main_v6 : S4x2048.Idx → EReal) (((cfg0.win 5).blk t).view.emb (ix2 g q)) = _
  rw [e, V_bias_apply]

/-- The cell-state block at a point in tile (r0, u0). -/
theorem blk6 (c : Dev nD) (t : Fin cfg0.N) (r0 u0 : Nat) (hr0 : r0 ≤ 31) (hu0 : u0 ≤ 7) (e0 : win0_6.index t (0 : Fin 2) = r0) (e1 : win0_6.index t (1 : Fin 2) = u0)
    (p : Fin 128) (q : Fin 256) :
    iblk m c 6 t (ix2 p q) = (m ((c : Thread nD τ).loc main_arg2)) (ix2 (⟨r0 * 128 + p.val, by omega⟩ : Fin 4096) (⟨u0 * 256 + q.val, by omega⟩ : Fin 2048)) := by
  have e : ((cfg0.win 6).blk t).view.emb (ix2 p q) = ix2 (⟨r0 * 128 + p.val, by omega⟩ : Fin 4096) (⟨u0 * 256 + q.val, by omega⟩ : Fin 2048) := funext fun a => Fin.ext (by
    match a with
    | ⟨0, _⟩ => show win0_6.index t (0 : Fin 2) * 128 + 1 * p.val = r0 * 128 + p.val; omega
    | ⟨1, _⟩ => show win0_6.index t (1 : Fin 2) * 256 + 1 * q.val = u0 * 256 + q.val; omega)
  show V m c main_arg2 (((cfg0.win 6).blk t).view.emb (ix2 p q)) = _
  rw [e, V_main_arg2]

/-! ## What a point writes back -/

/-- The hidden tile a point stores is the matching tile of the next hidden state. -/
theorem hidden_tile (c : Dev nD) (t : Fin cfg0.N) (j : S128x256.Idx) :
    hiddenVal (F := Ideal) (iblk m c 0 t) (iblk m c 1 t) (iblk m c 2 t) (iblk m c 3 t) (iblk m c 4 t) (iblk m c 5 t) (iblk m c 6 t) j = hiddenSpec m c (((cfg0.win 7).blk t).view.emb j) := by
  obtain ⟨e00, e01, e10, e11, e20, e21, e30, e31, e40, e41, e50, e51, e60, e61, e80, e81, hr, hu⟩ := idx_facts t
  obtain ⟨p, q, rfl⟩ : ∃ (p : Fin 128) (q : Fin 256), j = ix2 p q := ⟨j 0, j 1, eq_ix2 j⟩
  refine (hidden_point (iblk m c 0 t) (iblk m c 1 t) (iblk m c 2 t) (iblk m c 3 t) (iblk m c 4 t) (iblk m c 5 t) (iblk m c 6 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ hr hu
      (blk0 m c t _ hr e00 e01) (blk1 m c t _ hu e10 e11) (blk2 m c t _ hu e20 e21) (blk3 m c t _ hu e30 e31) (blk4 m c t _ hu e40 e41)
      (blk5 m c t _ hu e50 e51 0) (blk5 m c t _ hu e50 e51 1) (blk5 m c t _ hu e50 e51 2) (blk5 m c t _ hu e50 e51 3) (blk6 m c t _ _ hr hu e60 e61) p q).trans ?_
  unfold hiddenSpec Cert.LstmSpec.hidden
  refine congrArg₂ (Cert.LstmSpec.hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Fin.ext ?_) (Fin.ext ?_)
  · show win0_7.index t (0 : Fin 2) * 128 + p.val = win0_7.index t (0 : Fin 2) * 128 + 1 * p.val; omega
  · show win0_7.index t (1 : Fin 2) * 256 + q.val = win0_7.index t (1 : Fin 2) * 256 + 1 * q.val; omega

/-- The cell tile a point stores is the matching tile of the next cell state. -/
theorem cell_tile (c : Dev nD) (t : Fin cfg0.N) (j : S128x256.Idx) :
    cellVal (F := Ideal) (iblk m c 0 t) (iblk m c 1 t) (iblk m c 2 t) (iblk m c 3 t) (iblk m c 4 t) (iblk m c 5 t) (iblk m c 6 t) j = cellSpec m c (((cfg0.win 8).blk t).view.emb j) := by
  obtain ⟨e00, e01, e10, e11, e20, e21, e30, e31, e40, e41, e50, e51, e60, e61, e80, e81, hr, hu⟩ := idx_facts t
  obtain ⟨p, q, rfl⟩ : ∃ (p : Fin 128) (q : Fin 256), j = ix2 p q := ⟨j 0, j 1, eq_ix2 j⟩
  refine (cell_point (iblk m c 0 t) (iblk m c 1 t) (iblk m c 2 t) (iblk m c 3 t) (iblk m c 4 t) (iblk m c 5 t) (iblk m c 6 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ hr hu
      (blk0 m c t _ hr e00 e01) (blk1 m c t _ hu e10 e11) (blk2 m c t _ hu e20 e21) (blk4 m c t _ hu e40 e41)
      (blk5 m c t _ hu e50 e51 0) (blk5 m c t _ hu e50 e51 1) (blk5 m c t _ hu e50 e51 3) (blk6 m c t _ _ hr hu e60 e61) p q).trans ?_
  unfold cellSpec Cert.LstmSpec.cell
  refine congrArg₂ (Cert.LstmSpec.cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (Fin.ext ?_) (Fin.ext ?_)
  · show win0_7.index t (0 : Fin 2) * 128 + p.val = win0_8.index t (0 : Fin 2) * 128 + 1 * p.val; omega
  · show win0_7.index t (1 : Fin 2) * 256 + q.val = win0_8.index t (1 : Fin 2) * 256 + 1 * q.val; omega

/-- What point `t` writes back to the hidden result is block `t` of the next hidden state. -/
theorem flushed7_eq (c : Dev nD) (t : Fin cfg0.N) :
    (dats m 0 c).flushed 7 t = ((cfg0.win 7).blk t).view.read (Elt Ideal) (hiddenSpec m c) := by
  show (cfg0.win 7).cut (grid0.coords t) ((dats m 0 c).after 7 t) = _
  rw [after7]
  unfold hiddenTile
  rw [View.canon_unit_zero hz]
  funext j
  exact hidden_tile m c t j

/-- What point `t` writes back to the cell result is block `t` of the next cell state. -/
theorem flushed8_eq (c : Dev nD) (t : Fin cfg0.N) :
    (dats m 0 c).flushed 8 t = ((cfg0.win 8).blk t).view.read (Elt Ideal) (cellSpec m c) := by
  show (cfg0.win 8).cut (grid0.coords t) ((dats m 0 c).after 8 t) = _
  rw [after8]
  unfold cellTile
  rw [View.canon_unit_zero hz]
  funext j
  exact cell_tile m c t j

/-! ## The tiles cover the arrays -/

/-- An index is in point `t`'s block of result 0 iff each coordinate is in the tile's range. -/
theorem mem_blk7 (t : Fin cfg0.N) (i : S4096x2048.Idx) :
    i ∈ ((cfg0.win 7).blk t).view.set ↔ ∀ a : Fin 2, win0_7.index t a * S128x256.size a ≤ (i a).val ∧ (i a).val < win0_7.index t a * S128x256.size a + S128x256.size a := by
  show i ∈ ((View.whole main_v7_0).slice (win0_7.rect t)).set ↔ _
  rw [View.set_slice_whole, Rect.mem_set_unit]
  exact Iff.rfl

/-- Every index of result 0 is in some point's block: the point whose tile is (row / 128, column / 256). -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht7, ht8⟩ := idx_onto ⟨(i 0).val / 128, by omega⟩ ⟨(i 1).val / 256, by omega⟩
  have q0 : win0_7.index t (0 : Fin 2) = (i 0).val / 128 := congrFun ht7 0
  have q1 : win0_7.index t (1 : Fin 2) = (i 1).val / 256 := congrFun ht7 1
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 256 ≤ (i 1).val ∧ (i 1).val < win0_7.index t (1 : Fin 2) * 256 + 256; omega

/-- An index is in point `t`'s block of result 1 iff each coordinate is in the tile's range. -/
theorem mem_blk8 (t : Fin cfg0.N) (i : S4096x2048.Idx) :
    i ∈ ((cfg0.win 8).blk t).view.set ↔ ∀ a : Fin 2, win0_8.index t a * S128x256.size a ≤ (i a).val ∧ (i a).val < win0_8.index t a * S128x256.size a + S128x256.size a := by
  show i ∈ ((View.whole main_v7_1).slice (win0_8.rect t)).set ↔ _
  rw [View.set_slice_whole, Rect.mem_set_unit]
  exact Iff.rfl

/-- Every index of result 1 is in some point's block: the point whose tile is (row / 128, column / 256). -/
theorem cover8 (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht7, ht8⟩ := idx_onto ⟨(i 0).val / 128, by omega⟩ ⟨(i 1).val / 256, by omega⟩
  have q0 : win0_8.index t (0 : Fin 2) = (i 0).val / 128 := congrFun ht8 0
  have q1 : win0_8.index t (1 : Fin 2) = (i 1).val / 256 := congrFun ht8 1
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 256 ≤ (i 1).val ∧ (i 1).val < win0_8.index t (1 : Fin 2) * 256 + 256; omega

/-- After all write-backs the hidden result is the next hidden state, -/
theorem final7 (c : Dev nD) : (dats m 0 c).arrAt 7 cfg0.N = hiddenSpec m c :=
  (dats m 0 c).arrAt_eq_of_cover 7 (hiddenSpec m c) (fun t _ => flushed7_eq m c t) cover7

/-- and the cell result the next cell state. -/
theorem final8 (c : Dev nD) : (dats m 0 c).arrAt 8 cfg0.N = cellSpec m c :=
  (dats m 0 c).arrAt_eq_of_cover 8 (cellSpec m c) (fun t _ => flushed8_eq m c t) cover8

/-! ## The run -/

/-- Every weakly fair execution terminates without a fault, with the two results at the cell step of the launched
    arguments and the eleven arguments as launched. -/
theorem run : θ_run defs (onTc (τ := τ) (main (F := Ideal))) ⟨m, fun _ => 0, ρ⟩ fun r => ∀ c : Dev nD,
      r.2.mem ((c : Thread nD τ).loc main_v7_0) = hiddenSpec m c
      ∧ r.2.mem ((c : Thread nD τ).loc main_v7_1) = cellSpec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 7).trans (final7 m c), ((h c).1 8).trans (final8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 6).trans (((dats m 0 c).arrAt_in 6 rfl _).trans ((A_eq m c 6).trans (V_main_arg2 m c))),
    ((h c).1 1).trans (((dats m 0 c).arrAt_in 1 rfl _).trans ((A_eq m c 1).trans (V_main_arg3 m c))),
    ((h c).2 main_arg4 (Pipeline.mem_restRefs_of main_arg4 (by decide) (by decide))).trans (V_main_arg4 m c),
    ((h c).1 2).trans (((dats m 0 c).arrAt_in 2 rfl _).trans ((A_eq m c 2).trans (V_main_arg5 m c))),
    ((h c).2 main_arg6 (Pipeline.mem_restRefs_of main_arg6 (by decide) (by decide))).trans (V_main_arg6 m c),
    ((h c).1 3).trans (((dats m 0 c).arrAt_in 3 rfl _).trans ((A_eq m c 3).trans (V_main_arg7 m c))),
    ((h c).2 main_arg8 (Pipeline.mem_restRefs_of main_arg8 (by decide) (by decide))).trans (V_main_arg8 m c),
    ((h c).1 4).trans (((dats m 0 c).arrAt_in 4 rfl _).trans ((A_eq m c 4).trans (V_main_arg9 m c))),
    ((h c).2 main_arg10 (Pipeline.mem_restRefs_of main_arg10 (by decide) (by decide))).trans (V_main_arg10 m c)⟩)
    (run_main m ρ)

end Cert.KernelIdeal.Lstm

end
-- ==== Proof.RefIsSpec.lean ====
import proofs.«159585_j63505386439276_2_alg».proof.Proof.Gen.ReferenceIdeal.Read
import proofs.«159585_j63505386439276_2_alg».proof.Proof.LstmSpec
import Idealize.ShloMosaic.Lib.Pipeline.Value
import Idealize.ShloMosaic.Lib.ValueIdx
import Idealize.ShloMosaic.Lib.IdealHost
import Idealize.ShloMosaic.PureOps.Ideal.Laws

/-!
# The reference program computes the LSTM cell step of `LstmSpec`, entry by entry

The reference joins the hidden state and the input along the columns, `[h | x]` (4096 × 4096), joins the four gates'
weight matrices along the columns, `[Wf | Wi | Wo | Wc]` (4096 × 8192), joins their biases end to end (8192 entries),
takes the one product `[h | x] · [Wf | Wi | Wo | Wc]`, adds the joined bias to every row, and cuts the sum into four
column blocks of width 2048.

Column `2048·g + u` of the joined weights is column `u` of gate `g`'s matrix, and entry `2048·g + u` of the joined
bias is entry `u` of gate `g`'s bias (`g = 0, 1, 2, 3` for forget, input, output, candidate). So the entry of the sum
at row `r`, column `2048·g + u` is gate `g`'s pre-activation

  `∑ k, [h | x] r k · W_g k u + b_g u`,

and block `g` of the cut, read at `(r, u)`, is that number. The forget, input and output blocks then go through
`z ↦ 1 / (1 + e^(-z))`, written out with negation, exponential, a sum and a quotient whose constant has the bit pattern
of the number 1: that is the logistic function. The candidate block goes through `tanh`. The two results are

  next cell   = forget · c + input · candidate,
  next hidden = output · tanh (next cell),

which are `LstmSpec.cell` and `LstmSpec.hidden`. Every step below is read at one index `(r, u)` with `r : Fin 4096` and
`u : Fin 2048`; no array is ever compared with another as a whole except in the last two theorems, by extensionality.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- A 4096 × 2048 array of extended reals, as the reference's stages take it. -/
abbrev Mat : Type := (⟨S4096x2048, .f32⟩ : BufTy).Contents (Elt Ideal)
/-- A 2048-vector of extended reals, as the reference's stages take it. -/
abbrev Vec1 : Type := (⟨S2048, .f32⟩ : BufTy).Contents (Elt Ideal)

/-! ## The three joins, read at an index -/

/-- `[h | x]` at row `r`, column `k < 2048` is `h r k`: the column falls in the first piece. -/
theorem v0_left (x0 x1 : Mat) (r k : Fin 4096) (hk : k.val < 2048) :
    val_main_v0 (F := Ideal) x0 x1 (ix2 r k) = x1 (ix2 r (⟨k.val, hk⟩ : Fin 2048)) := by
  unfold val_main_v0
  exact concatenate_pair_apply_left (1 : Fin S4096x4096.rank) x1 x0 concatenates_S4096x2048_S4096x2048_S4096x4096_d1
    (ix2 r k) rfl (ix2 r (⟨k.val, hk⟩ : Fin 2048)) (fun b => match b with | ⟨0, _⟩ => rfl | ⟨1, _⟩ => rfl)

/-- `[h | x]` at row `r`, column `k ≥ 2048` is `x r (k - 2048)`: the column falls in the second piece, the first
    piece's width less. -/
theorem v0_right (x0 x1 : Mat) (r k : Fin 4096) (hk : ¬ k.val < 2048) :
    val_main_v0 (F := Ideal) x0 x1 (ix2 r k) = x0 (ix2 r (⟨k.val - 2048, by omega⟩ : Fin 2048)) := by
  unfold val_main_v0
  exact concatenate_pair_apply_right (1 : Fin S4096x4096.rank) x1 x0 concatenates_S4096x2048_S4096x2048_S4096x4096_d1
    (ix2 r k) rfl rfl (ix2 r (⟨k.val - 2048, by omega⟩ : Fin 2048))
    (fun b hb => match b, hb with | ⟨0, _⟩, _ => rfl | ⟨1, _⟩, hb => absurd rfl hb)
    (by show k.val - 2048 + 2048 = k.val; omega)

/-- The joined input at `(r, k)` is the specification's `inp x h r k`. -/
theorem v0_apply (x0 x1 : Mat) (r k : Fin 4096) :
    val_main_v0 (F := Ideal) x0 x1 (ix2 r k) = Cert.LstmSpec.inp x0 x1 r k := by
  unfold Cert.LstmSpec.inp
  by_cases hk : k.val < 2048
  · rw [dif_pos hk]; exact v0_left x0 x1 r k hk
  · rw [dif_neg hk]; exact v0_right x0 x1 r k hk

/-- The four weight matrices as a family over the gate number (forget, input, output, candidate). -/
def W4 (x3 x5 x7 x9 : Mat) : Fin 4 → (S4096x2048.Idx → EReal) := ![x3, x5, x7, x9]
/-- The four bias vectors as a family over the gate number. -/
def b4 (x4 x6 x8 x10 : Vec1) : Fin 4 → (S2048.Idx → EReal) := ![x4, x6, x8, x10]

/-- `[Wf | Wi | Wo | Wc]` at row `k`, column `c = 2048·g + u` is gate `g`'s matrix at `(k, u)`: four pieces of one
    width 2048, so the piece is `c / 2048 = g` and the column inside it `c % 2048 = u`. -/
theorem v1_apply (x3 x5 x7 x9 : Mat) (k : Fin 4096) (g : Fin 4) (u : Fin 2048) (c : Fin 8192)
    (hc : c.val = 2048 * g.val + u.val) :
    val_main_v1 (F := Ideal) x3 x5 x7 x9 (ix2 k c) = W4 x3 x5 x7 x9 g (ix2 k u) := by
  unfold val_main_v1
  exact concatenate_ofFn_apply (1 : Fin S4096x8192.rank) (W4 x3 x5 x7 x9)
    concatenates_S4096x2048_S4096x2048_S4096x2048_S4096x2048_S4096x8192_d1 rfl 2048 rfl (ix2 k c) g
    (by show c.val / 2048 = g.val; have := u.isLt; omega) (ix2 k u)
    (by show u.val = c.val % 2048; have := u.isLt; omega)
    (fun b hb => match b, hb with | ⟨0, _⟩, _ => rfl | ⟨1, _⟩, hb => absurd rfl hb)

/-- The joined bias at entry `c = 2048·g + u` is gate `g`'s bias at `u`. -/
theorem v2_apply (x4 x6 x8 x10 : Vec1) (g : Fin 4) (u : Fin 2048) (c : Fin 8192)
    (hc : c.val = 2048 * g.val + u.val) :
    val_main_v2 (F := Ideal) x4 x6 x8 x10 (ix1 c) = b4 x4 x6 x8 x10 g (ix1 u) := by
  unfold val_main_v2
  exact concatenate_ofFn_apply (0 : Fin S8192.rank) (b4 x4 x6 x8 x10)
    concatenates_S2048_S2048_S2048_S2048_S8192_d0 rfl 2048 rfl (ix1 c) g
    (by show c.val / 2048 = g.val; have := u.isLt; omega) (ix1 u)
    (by show u.val = c.val % 2048; have := u.isLt; omega)
    (fun b hb => match b, hb with | ⟨0, _⟩, hb => absurd rfl hb)

/-! ## The product plus bias at a column of the joined weights -/

/-- The product's left operand is read at `(r, k)`: the result's row and the summation index. -/
theorem lidx_eq (r : Fin 4096) (c : Fin 8192) (k : Fin 4096) : lidx_main_v3 (ix2 r c) k = ix2 r k := by
  funext a; match a with | ⟨0, _⟩ => rfl | ⟨1, _⟩ => rfl

/-- The product's right operand is read at `(k, c)`: the summation index and the result's column. -/
theorem ridx_eq (r : Fin 4096) (c : Fin 8192) (k : Fin 4096) : ridx_main_v3 (ix2 r c) k = ix2 k c := by
  funext a; match a with | ⟨0, _⟩ => rfl | ⟨1, _⟩ => rfl

/-- The bias, spread over one row and then over all 4096 rows, is read at `(r, c)` from its entry `c`. -/
theorem idx45_eq (r : Fin 4096) (c : Fin 8192) : idx_main_v4 (idx_main_v5 (ix2 r c)) = ix1 c := by
  funext a; match a with | ⟨0, _⟩ => rfl

/-- `[h | x] · [Wf | Wi | Wo | Wc] + b` at row `r`, column `c = 2048·g + u` is gate `g`'s pre-activation at
    `(r, u)`: each term of the sum over `k` is `[h | x] r k` times gate `g`'s weight at `(k, u)`, and the bias
    entry is gate `g`'s at `u`. -/
theorem v6_apply (x0 x1 x3 : Mat) (x4 : Vec1) (x5 : Mat) (x6 : Vec1) (x7 : Mat) (x8 : Vec1) (x9 : Mat) (x10 : Vec1) (r : Fin 4096) (g : Fin 4) (u : Fin 2048) (c : Fin 8192)
    (hc : c.val = 2048 * g.val + u.val) :
    val_main_v6 (F := Ideal) x0 x1 x3 x4 x5 x6 x7 x8 x9 x10 (ix2 r c)
      = Cert.LstmSpec.pre x0 x1 (W4 x3 x5 x7 x9 g) (b4 x4 x6 x8 x10 g) r u := by
  rw [val_main_v6_apply, val_main_v3_apply, val_main_v5_apply, val_main_v4_apply, idx45_eq,
    v2_apply x4 x6 x8 x10 g u c hc]
  unfold Cert.LstmSpec.pre
  rw [Ideal.addf_def]
  refine congrArg (· + b4 x4 x6 x8 x10 g (ix1 u)) (Finset.sum_congr rfl fun k _ => ?_)
  rw [lidx_eq, ridx_eq, v0_apply, v1_apply x3 x5 x7 x9 k g u c hc]

/-! ## The four column blocks -/

/-- Block 0 at `(r, u)` reads the sum at `(r, u)`. -/
theorem idx7_eq (r : Fin 4096) (u : Fin 2048) (h : u.val < 8192) :
    idx_main_v7 (ix2 r u) = ix2 r (⟨u.val, h⟩ : Fin 8192) := by
  funext a; match a with | ⟨0, _⟩ => rfl | ⟨1, _⟩ => rfl
/-- Block 1 at `(r, u)` reads the sum at `(r, 2048 + u)`. -/
theorem idx8_eq (r : Fin 4096) (u : Fin 2048) (h : 2048 + u.val < 8192) :
    idx_main_v8 (ix2 r u) = ix2 r (⟨2048 + u.val, h⟩ : Fin 8192) := by
  funext a; match a with | ⟨0, _⟩ => rfl | ⟨1, _⟩ => rfl
/-- Block 2 at `(r, u)` reads the sum at `(r, 4096 + u)`. -/
theorem idx9_eq (r : Fin 4096) (u : Fin 2048) (h : 4096 + u.val < 8192) :
    idx_main_v9 (ix2 r u) = ix2 r (⟨4096 + u.val, h⟩ : Fin 8192) := by
  funext a; match a with | ⟨0, _⟩ => rfl | ⟨1, _⟩ => rfl
/-- Block 3 at `(r, u)` reads the sum at `(r, 6144 + u)`. -/
theorem idx10_eq (r : Fin 4096) (u : Fin 2048) (h : 6144 + u.val < 8192) :
    idx_main_v10 (ix2 r u) = ix2 r (⟨6144 + u.val, h⟩ : Fin 8192) := by
  funext a; match a with | ⟨0, _⟩ => rfl | ⟨1, _⟩ => rfl

/-- Block 0 is the forget gate's pre-activation. -/
theorem zf_apply (x0 x1 x3 : Mat) (x4 : Vec1) (x5 : Mat) (x6 : Vec1) (x7 : Mat) (x8 : Vec1) (x9 : Mat) (x10 : Vec1) (r : Fin 4096) (u : Fin 2048) :
    val_main_v7 (F := Ideal) x0 x1 x3 x4 x5 x6 x7 x8 x9 x10 (ix2 r u) = Cert.LstmSpec.pre x0 x1 x3 x4 r u := by
  rw [val_main_v7_apply, idx7_eq r u (by have := u.isLt; omega)]
  exact v6_apply x0 x1 x3 x4 x5 x6 x7 x8 x9 x10 r 0 u _ (by show u.val = 2048 * 0 + u.val; omega)

/-- Block 1 is the input gate's pre-activation. -/
theorem zi_apply (x0 x1 x3 : Mat) (x4 : Vec1) (x5 : Mat) (x6 : Vec1) (x7 : Mat) (x8 : Vec1) (x9 : Mat) (x10 : Vec1) (r : Fin 4096) (u : Fin 2048) :
    val_main_v8 (F := Ideal) x0 x1 x3 x4 x5 x6 x7 x8 x9 x10 (ix2 r u) = Cert.LstmSpec.pre x0 x1 x5 x6 r u := by
  rw [val_main_v8_apply, idx8_eq r u (by have := u.isLt; omega)]
  exact v6_apply x0 x1 x3 x4 x5 x6 x7 x8 x9 x10 r 1 u _ (by show 2048 + u.val = 2048 * 1 + u.val; omega)

/-- Block 2 is the output gate's pre-activation. -/
theorem zo_apply (x0 x1 x3 : Mat) (x4 : Vec1) (x5 : Mat) (x6 : Vec1) (x7 : Mat) (x8 : Vec1) (x9 : Mat) (x10 : Vec1) (r : Fin 4096) (u : Fin 2048) :
    val_main_v9 (F := Ideal) x0 x1 x3 x4 x5 x6 x7 x8 x9 x10 (ix2 r u) = Cert.LstmSpec.pre x0 x1 x7 x8 r u := by
  rw [val_main_v9_apply, idx9_eq r u (by have := u.isLt; omega)]
  exact v6_apply x0 x1 x3 x4 x5 x6 x7 x8 x9 x10 r 2 u _ (by show 4096 + u.val = 2048 * 2 + u.val; omega)

/-- Block 3 is the candidate's pre-activation. -/
theorem zc_apply (x0 x1 x3 : Mat) (x4 : Vec1) (x5 : Mat) (x6 : Vec1) (x7 : Mat) (x8 : Vec1) (x9 : Mat) (x10 : Vec1) (r : Fin 4096) (u : Fin 2048) :
    val_main_v10 (F := Ideal) x0 x1 x3 x4 x5 x6 x7 x8 x9 x10 (ix2 r u) = Cert.LstmSpec.pre x0 x1 x9 x10 r u := by
  rw [val_main_v10_apply, idx10_eq r u (by have := u.isLt; omega)]
  exact v6_apply x0 x1 x3 x4 x5 x6 x7 x8 x9 x10 r 3 u _ (by show 6144 + u.val = 2048 * 3 + u.val; omega)

/-! ## The gate functions -/

/-- `1 / (1 + e^(-z))` written with the constant whose bit pattern is that of the number 1 is the logistic function,
    on every extended real. -/
theorem sigmoid_eq (z : Ideal .f32) :
    FloatOps.hostDivf (F := Ideal) (FloatOps.ofBits (F := Ideal) .f32 0x3F800000#32)
      (FloatOps.addf (FloatOps.ofBits (F := Ideal) .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32]
  rfl

/-- The forget gate at `(r, u)`. -/
theorem f_apply (x0 x1 x3 : Mat) (x4 : Vec1) (x5 : Mat) (x6 : Vec1) (x7 : Mat) (x8 : Vec1) (x9 : Mat) (x10 : Vec1) (r : Fin 4096) (u : Fin 2048) :
    val_main_v16 (F := Ideal) x0 x1 x3 x4 x5 x6 x7 x8 x9 x10 (ix2 r u) = Ideal.logistic (Cert.LstmSpec.pre x0 x1 x3 x4 r u) := by
  rw [val_main_v16_apply, val_main_v15_apply, val_main_cst_0_apply, val_main_v14_apply, val_main_v13_apply,
    val_main_cst_apply, val_main_v12_apply, val_main_v11_apply, zf_apply]
  exact sigmoid_eq _

/-- The input gate at `(r, u)`. -/
theorem i_apply (x0 x1 x3 : Mat) (x4 : Vec1) (x5 : Mat) (x6 : Vec1) (x7 : Mat) (x8 : Vec1) (x9 : Mat) (x10 : Vec1) (r : Fin 4096) (u : Fin 2048) :
    val_main_v22 (F := Ideal) x0 x1 x3 x4 x5 x6 x7 x8 x9 x10 (ix2 r u) = Ideal.logistic (Cert.LstmSpec.pre x0 x1 x5 x6 r u) := by
  rw [val_main_v22_apply, val_main_v21_apply, val_main_cst_2_apply, val_main_v20_apply, val_main_v19_apply,
    val_main_cst_1_apply, val_main_v18_apply, val_main_v17_apply, zi_apply]
  exact sigmoid_eq _

/-- The output gate at `(r, u)`. -/
theorem o_apply (x0 x1 x3 : Mat) (x4 : Vec1) (x5 : Mat) (x6 : Vec1) (x7 : Mat) (x8 : Vec1) (x9 : Mat) (x10 : Vec1) (r : Fin 4096) (u : Fin 2048) :
    val_main_v28 (F := Ideal) x0 x1 x3 x4 x5 x6 x7 x8 x9 x10 (ix2 r u) = Ideal.logistic (Cert.LstmSpec.pre x0 x1 x7 x8 r u) := by
  rw [val_main_v28_apply, val_main_v27_apply, val_main_cst_4_apply, val_main_v26_apply, val_main_v25_apply,
    val_main_cst_3_apply, val_main_v24_apply, val_main_v23_apply, zo_apply]
  exact sigmoid_eq _

/-- The candidate at `(r, u)`. -/
theorem cand_apply (x0 x1 x3 : Mat) (x4 : Vec1) (x5 : Mat) (x6 : Vec1) (x7 : Mat) (x8 : Vec1) (x9 : Mat) (x10 : Vec1) (r : Fin 4096) (u : Fin 2048) :
    val_main_v29 (F := Ideal) x0 x1 x3 x4 x5 x6 x7 x8 x9 x10 (ix2 r u) = Ideal.tanh (Cert.LstmSpec.pre x0 x1 x9 x10 r u) := by
  rw [val_main_v29_apply, zc_apply, Ideal.hostUnary_tanh_def]

/-! ## The two results -/

/-- The next cell state at `(r, u)`: forget · cell + input · candidate. -/
theorem cell_at (x0 x1 x2 x3 : Mat) (x4 : Vec1) (x5 : Mat) (x6 : Vec1) (x7 : Mat) (x8 : Vec1) (x9 : Mat) (x10 : Vec1) (r : Fin 4096) (u : Fin 2048) :
    val_main_v32 (F := Ideal) x0 x1 x2 x3 x4 x5 x6 x7 x8 x9 x10 (ix2 r u) = Cert.LstmSpec.cellAt x0 x1 x2 x3 x4 x5 x6 x9 x10 r u := by
  rw [val_main_v32_apply, val_main_v30_apply, val_main_v31_apply, f_apply, i_apply, cand_apply,
    Ideal.addf_def, Ideal.mulf_def, Ideal.mulf_def]
  rfl

/-- The next hidden state at `(r, u)`: output · tanh (next cell). -/
theorem hidden_at (x0 x1 x2 x3 : Mat) (x4 : Vec1) (x5 : Mat) (x6 : Vec1) (x7 : Mat) (x8 : Vec1) (x9 : Mat) (x10 : Vec1) (r : Fin 4096) (u : Fin 2048) :
    val_main_v34 (F := Ideal) x0 x1 x2 x3 x4 x5 x6 x7 x8 x9 x10 (ix2 r u) = Cert.LstmSpec.hiddenAt x0 x1 x2 x3 x4 x5 x6 x7 x8 x9 x10 r u := by
  rw [val_main_v34_apply, val_main_v33_apply, o_apply, cell_at, Ideal.hostUnary_tanh_def, Ideal.mulf_def]
  rfl

/-- The reference's next cell state is the specification's, as arrays: equal at every index `(r, u)`. -/
theorem cell_eq (a0 a1 a2 a3 : (⟨S4096x2048, .f32⟩ : BufTy).Contents (Elt Ideal)) (a4 : (⟨S2048, .f32⟩ : BufTy).Contents (Elt Ideal))
    (a5 : (⟨S4096x2048, .f32⟩ : BufTy).Contents (Elt Ideal)) (a6 : (⟨S2048, .f32⟩ : BufTy).Contents (Elt Ideal))
    (a7 : (⟨S4096x2048, .f32⟩ : BufTy).Contents (Elt Ideal)) (a8 : (⟨S2048, .f32⟩ : BufTy).Contents (Elt Ideal))
    (a9 : (⟨S4096x2048, .f32⟩ : BufTy).Contents (Elt Ideal)) (a10 : (⟨S2048, .f32⟩ : BufTy).Contents (Elt Ideal)) :
    Cert.ReferenceIdeal.Read.val_main_v32 (F := Ideal) a0 a1 a2 a3 a4 a5 a6 a7 a8 a9 a10
      = Cert.LstmSpec.cell a0 a1 a2 a3 a4 a5 a6 a7 a8 a9 a10 := by
  funext j
  obtain ⟨r, u, rfl⟩ : ∃ (r : Fin 4096) (u : Fin 2048), j = ix2 r u := ⟨j 0, j 1, eq_ix2 j⟩
  exact cell_at a0 a1 a2 a3 a4 a5 a6 a7 a8 a9 a10 r u

/-- The reference's next hidden state is the specification's, as arrays: equal at every index `(r, u)`. -/
theorem hidden_eq (a0 a1 a2 a3 : (⟨S4096x2048, .f32⟩ : BufTy).Contents (Elt Ideal)) (a4 : (⟨S2048, .f32⟩ : BufTy).Contents (Elt Ideal))
    (a5 : (⟨S4096x2048, .f32⟩ : BufTy).Contents (Elt Ideal)) (a6 : (⟨S2048, .f32⟩ : BufTy).Contents (Elt Ideal))
    (a7 : (⟨S4096x2048, .f32⟩ : BufTy).Contents (Elt Ideal)) (a8 : (⟨S2048, .f32⟩ : BufTy).Contents (Elt Ideal))
    (a9 : (⟨S4096x2048, .f32⟩ : BufTy).Contents (Elt Ideal)) (a10 : (⟨S2048, .f32⟩ : BufTy).Contents (Elt Ideal)) :
    Cert.ReferenceIdeal.Read.val_main_v34 (F := Ideal) a0 a1 a2 a3 a4 a5 a6 a7 a8 a9 a10
      = Cert.LstmSpec.hidden a0 a1 a2 a3 a4 a5 a6 a7 a8 a9 a10 := by
  funext j
  obtain ⟨r, u, rfl⟩ : ∃ (r : Fin 4096) (u : Fin 2048), j = ix2 r u := ⟨j 0, j 1, eq_ix2 j⟩
  exact hidden_at a0 a1 a2 a3 a4 a5 a6 a7 a8 a9 a10 r u

end Cert.ReferenceIdeal.RefValue

end
-- ==== Proof.lean ====
import proofs.«159585_j63505386439276_2_alg».proof.Defs
import proofs.«159585_j63505386439276_2_alg».proof.Proof.Gen.Kernel
import proofs.«159585_j63505386439276_2_alg».proof.Proof.Gen.KernelIdeal
import proofs.«159585_j63505386439276_2_alg».proof.Proof.Gen.ReferenceIdeal
import proofs.«159585_j63505386439276_2_alg».proof.Proof.Gen.Pre_finite_inputs
import proofs.«159585_j63505386439276_2_alg».proof.Proof.Gen.ReferenceIdeal.Run
import proofs.«159585_j63505386439276_2_alg».proof.Proof.Gen.ReferenceIdeal.Read
import proofs.«159585_j63505386439276_2_alg».proof.Proof.KFrame
import proofs.«159585_j63505386439276_2_alg».proof.Proof.KiValue
import proofs.«159585_j63505386439276_2_alg».proof.Proof.RefIsSpec
import Idealize.ShloMosaic.Adequacy
import Idealize.ShloMosaic.Init

/-!
# A fused LSTM-cell kernel against its jnp reference, on the extended reals

The kernel tiles the 4096 × 2048 results into 32 × 8 tiles of 128 × 256; for each tile it multiplies 128 rows of
`[h | x]` by 256 columns of each gate's weight matrix (one product per gate over all 4096 shared coordinates), adds that
gate's bias row, applies the logistic function (forget, input, output) or `tanh` (candidate), and stores
`f · c + i · g` and `o · tanh (f · c + i · g)`. The reference does the four products as one product with the four weight
matrices joined side by side, adds the joined bias, cuts the result into the four gates, writes the logistic function
out as `1 / (1 + e^(-z))`, and combines the gates the same way.

On the extended reals the kernel's rounding of `[h | x]` and of the weights to bf16 is the identity, a matrix product
into a zero accumulator is the plain sum, and `1 / (1 + e^(-z))` IS the logistic function; so entry (r, u) of either
program's two results is the cell step `LstmSpec` states, and no law of arithmetic beyond reading both sides at an index
is needed — in particular nothing about finiteness: the claim holds for every extended-real input.

The three frames: each kernel program's is the library's frame run over one run of the body per grid point; the
reference's is its run with the results dropped. The idealization rewrote nothing, so `preserves` is `True`.
-/

noncomputable section

namespace Cert.Proof

open Idealize.ShloMosaic Idealize.ShloMosaic.TcCoe Idealize.SL.Sem

theorem frame_k : Cert.frame_Kernel := fun m ρ _ => Cert.Kernel.Lstm.frame m ρ

theorem frame_ki : Cert.frame_KernelIdeal := fun m ρ _ => Cert.KernelIdeal.Lstm.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the next hidden state and the next cell state of the launched arguments: the kernel's run
    ends there tile by tile, the reference's operation by operation, and the two memories agree on the arguments. -/
theorem algebraic : Cert.algebraic_KernelIdeal_ReferenceIdeal := by
  intro m ρ m' ρ' _ hagree
  refine ⟨fun c => Cert.KernelIdeal.Lstm.hiddenSpec m c, fun c => Cert.KernelIdeal.Lstm.cellSpec m c, Cert.KernelIdeal.Lstm.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v34_eq, Cert.ReferenceIdeal.RefValue.hidden_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl
  · refine (Cert.ReferenceIdeal.Read.val_main_v32_eq _ _ _ _ _ _ _ _ _ _ _).trans ?_
    rw [Cert.ReferenceIdeal.RefValue.cell_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
